-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S16384x1536 : Shape := ⟨2, ![16384, 1536]⟩
abbrev S1x64 : Shape := ⟨2, ![1, 64]⟩
abbrev S16384x128 : Shape := ⟨2, ![16384, 128]⟩
abbrev S2048x1536 : Shape := ⟨2, ![2048, 1536]⟩
abbrev S2048x128 : Shape := ⟨2, ![2048, 128]⟩
abbrev S2048x768 : Shape := ⟨2, ![2048, 768]⟩
abbrev S2048x64 : Shape := ⟨2, ![2048, 64]⟩
abbrev S2048 : Shape := ⟨1, ![2048]⟩
abbrev S2048x1 : Shape := ⟨2, ![2048, 1]⟩
abbrev S32768x64 : Shape := ⟨2, ![32768, 64]⟩

abbrev nBuf : Space → Nat
  | .hbm => 9
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S16384x1536, .f32⟩
  | .hbm, ⟨4, _⟩ => ⟨S1x64, .f32⟩
  | .hbm, ⟨5, _⟩ => ⟨S16384x128, .f32⟩
  | .hbm, ⟨6, _⟩ => ⟨S16384x128, .f32⟩
  | .hbm, ⟨7, _⟩ => ⟨S32768x64, .f32⟩
  | .hbm, ⟨8, _⟩ => ⟨S32768x64, .f32⟩
  | .local _ .vmem, ⟨0, _⟩ => ⟨S2048x1536, .f32⟩
  | .local _ .vmem, ⟨1, _⟩ => ⟨S2048x1536, .f32⟩
  | .local _ .vmem, ⟨2, _⟩ => ⟨S64x768, .f32⟩
  | .local _ .vmem, ⟨3, _⟩ => ⟨S1x64, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768x768_S16384x1536 : S32768x768.ShapeCasts S16384x1536
  shapeCasts_S64_S1x64 : S64.ShapeCasts S1x64
  inb_S64x768_S64x768_0_0 : ∀ a, (![0, 0] : Fin 2 → Nat) a + S64x768.size a ≤ S64x768.size a
  h_S64x768 : 0 < S64x768.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x1536_S2048x768_0_0 : ∀ a, (![0, 0] : Fin 2 → Nat) a + S2048x768.size a ≤ S2048x1536.size a
  h_S2048x768 : 0 < S2048x768.numel
  shapeCasts_S2048x768_S2048x768 : S2048x768.ShapeCasts S2048x768
  broadcasts_S1x64_S2048x64 : S1x64.Broadcasts S2048x64
  inb_S2048x1536_S2048x768_0_768 : ∀ a, (![0, 768] : Fin 2 → Nat) a + S2048x768.size a ≤ S2048x1536.size a
  concatenates_S2048x64_S2048x64_S2048x128_d1 : Shape.Concatenates [S2048x64, S2048x64] S2048x128 1
  inb_S2048x128_S2048x128_0_0 : ∀ a, (![0, 0] : Fin 2 → Nat) a + S2048x128.size a ≤ S2048x128.size a
  h_S2048x128 : 0 < S2048x128.numel
  reduces_S2048x64_S2048 : S2048x64.Reduces [1] S2048
  shapeCasts_S2048_S2048x1 : S2048.ShapeCasts S2048x1
  broadcasts_S2048x1_S2048x64 : S2048x1.Broadcasts S2048x64
  shapeCasts_S16384x128_S32768x64 : S16384x128.ShapeCasts S32768x64
  dot_S2048x768_S64x768_S2048x64_1_1_0_0_n_n_wf : DotDims.WF S2048x768 S64x768 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1536.size a ≤ S16384x1536.size a
  hwx0_0 : ∀ i : grid0.Coords, EltTy.bits .f32 = 32 ∨ (Rect.block (s := S16384x1536) S2048x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)

variable [Facts₀]

def dot_S2048x768_S64x768_S2048x64_1_1_0_0_n_n : DotDims S2048x768 S64x768 S2048x64 where
  lhsContracting := [1]
  rhsContracting := [1]
  lhsNonContracting := [0]
  rhsNonContracting := [0]
  lhsBatch := []
  rhsBatch := []
  wf := dot_S2048x768_S64x768_S2048x64_1_1_0_0_n_n_wf

abbrev win0_0 : Pipeline.Window sig grid0 :=
  Pipeline.Window.ofSpec (Memref.whole main_v0) S2048x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.RouterSpec.lean ====
/-
  The mathematics of the router, stated once and over no program.

  A token `t` (one of 32768 rows of `x`, 768 wide) gets one logit per expert `e` (one of 64 rows of `W`):
  `logit t e = (∑ k, x t k · W e k) + b e`. A row of 64 logits is turned into probabilities by the softmax taken in
  the numerically safe form: with `M` the row's greatest entry (the fold of `max` from −∞), entry `e` becomes
  `exp (l e − M) / ∑ e', exp (l e' − M)`. Everything is over the extended reals, where `max`, `+` and `·` are
  associative and commutative, so neither the order of a sum nor of a maximum matters.
-/
import Idealize.ShloMosaic.PureOps.Ideal
import Idealize.ShloMosaic.Lib.ValueIdx
import Mathlib.Data.Finset.Fold

noncomputable section

open scoped BigOperators

namespace Cert.Router

open Idealize.ShloMosaic Idealize.ShloMosaic.ValueIdx

/-- The token matrix's, the expert matrix's, the bias's and the result's index sets. -/
abbrev XS : Shape := ⟨2, ![32768, 768]⟩
abbrev WS : Shape := ⟨2, ![64, 768]⟩
abbrev BS : Shape := ⟨1, ![64]⟩
abbrev OS : Shape := ⟨2, ![32768, 64]⟩

/-- −∞, as the f32 pattern both programs start their row maximum from. -/
abbrev negInf : EReal := Ideal.ofBits .f32 0xFF800000#32

/-- Token `t`'s logit for expert `e`: the inner product of row `t` of `x` with row `e` of `W`, plus the bias. -/
def logit (x : XS.Idx → EReal) (W : WS.Idx → EReal) (b : BS.Idx → EReal) (t : Fin 32768) (e : Fin 64) : EReal :=
  (∑ k : Fin 768, x (ix2 t k) * W (ix2 e k)) + b (ix1 e)

/-- A row's greatest entry: the fold of `max` over its 64 entries, from −∞. -/
def rowMax (l : Fin 64 → EReal) : EReal := (Finset.univ : Finset (Fin 64)).fold max negInf l

/-- The softmax of a row of 64 entries, shifted by the row's maximum. -/
def softmaxRow (l : Fin 64 → EReal) (e : Fin 64) : EReal :=
  Ideal.div (Ideal.exp (l e - rowMax l)) (∑ e' : Fin 64, Ideal.exp (l e' - rowMax l))

/-- The logits as one array: entry `(t, e)` is `logit t e`. -/
def logits (x : XS.Idx → EReal) (W : WS.Idx → EReal) (b : BS.Idx → EReal) : OS.Idx → EReal :=
  fun i => logit x W b (i 0) (i 1)

/-- The probabilities as one array: row `t` is the softmax of row `t` of the logits. -/
def probs (x : XS.Idx → EReal) (W : WS.Idx → EReal) (b : BS.Idx → EReal) : OS.Idx → EReal :=
  fun i => softmaxRow (logit x W b (i 0)) (i 1)

theorem logits_ix2 (x : XS.Idx → EReal) (W : WS.Idx → EReal) (b : BS.Idx → EReal) (t : Fin 32768) (e : Fin 64) :
    logits x W b (ix2 t e) = logit x W b t e := rfl

theorem probs_ix2 (x : XS.Idx → EReal) (W : WS.Idx → EReal) (b : BS.Idx → EReal) (t : Fin 32768) (e : Fin 64) :
    probs x W b (ix2 t e) = softmaxRow (logit x W b t) e := rfl

/-- A maximum taken once more against its own starting value changes nothing: the fold is already above it. -/
theorem max_negInf_rowMax (l : Fin 64 → EReal) : max negInf (rowMax l) = rowMax l :=
  max_eq_right ((Finset.le_fold_max _).mpr (Or.inl le_rfl))

end Cert.Router

end
-- ==== Proof.RefIsSpec.lean ====
/-
  The reference computes the specification: its logits array is `logits` and its probabilities array is `probs` of
  its three arguments, entry by entry.

  For the logits: the `dot_general` of `x` with the transpose of `W` is, at `(t, e)`, the sum over `k` of
  `x t k · W e k`, and the two broadcasts of the bias put `b e` at `(t, e)`. For the probabilities: the host's row
  maximum is the fold of `max` from −∞ over the row; the further `maximum` against a splat of −∞ changes nothing;
  the row sum starts from the zero word, which adds nothing.
-/
import proofs.«137286_g17575006175839_cont_sun_c4_656_15_alg».proof.Proof.Gen.ReferenceIdeal.Read
import proofs.«137286_g17575006175839_cont_sun_c4_656_15_alg».proof.Proof.RouterSpec
import Idealize.ShloMosaic.PureOps.Ideal.Laws

noncomputable section

open scoped BigOperators

namespace Cert.Router.Reference

open Cert.ReferenceIdeal Cert.ReferenceIdeal.Gen Cert.ReferenceIdeal.Read
open Idealize.ShloMosaic Idealize.ShloMosaic.ValueIdx Cert.Router

variable (x0 : (⟨S32768x768, .f32⟩ : BufTy).Contents (Elt Ideal)) (x1 : (⟨S64x768, .f32⟩ : BufTy).Contents (Elt Ideal))
  (x2 : (⟨S64, .f32⟩ : BufTy).Contents (Elt Ideal))

/-! ## The composed index maps of the generated stages, as coordinates -/

theorem lhs_at (t : Fin 32768) (e : Fin 64) (k : Fin 768) : lidx_main_v1 (ix2 t e) k = ix2 t k :=
  funext fun a => Fin.ext (by match a with | ⟨0, _⟩ => rfl | ⟨1, _⟩ => rfl)

theorem rhs_at (t : Fin 32768) (e : Fin 64) (k : Fin 768) : idx_main_v0 (ridx_main_v1 (ix2 t e) k) = ix2 e k :=
  funext fun a => Fin.ext (by match a with | ⟨0, _⟩ => rfl | ⟨1, _⟩ => rfl)

theorem bias_at (t : Fin 32768) (e : Fin 64) : idx_main_v2 (idx_main_v3 (ix2 t e)) = ix1 e :=
  funext fun a => Fin.ext (by match a with | ⟨0, _⟩ => rfl)

/-! ## The logits -/

theorem logit_at (t : Fin 32768) (e : Fin 64) :
    val_main_v4 (F := Ideal) x0 x1 x2 (ix2 t e) = logit x0 x1 x2 t e := by
  rw [val_main_v4_apply, val_main_v1_apply, val_main_v3_apply, val_main_v2_apply]
  simp only [val_main_v0_apply, lhs_at, rhs_at, bias_at, Ideal.addf_def]
  rfl

theorem logits_eq : val_main_v4 (F := Ideal) x0 x1 x2 = logits x0 x1 x2 := by
  funext i
  obtain ⟨t, e, rfl⟩ : ∃ (t : Fin 32768) (e : Fin 64), i = ix2 t e := ⟨i 0, i 1, eq_ix2 i⟩
  exact logit_at x0 x1 x2 t e

/-! ## The probabilities -/

/-- The coordinates of the index a one-axis reduction reads: row `t`, entry `e`. -/
theorem lift_at (h : S32768x64.Reduces [1] S32768) (t : Fin 32768) (e : Fin 64) : h.lift (ix1 t) e = ix2 t e :=
  funext fun a => Fin.ext (by match a with | ⟨0, _⟩ => rfl | ⟨1, _⟩ => rfl)

/-- The shift the host subtracts from row `t`: the row's maximum (the second maximum, against −∞, is idle). -/
theorem rowMax_at (t : Fin 32768) : val_main_v7 (F := Ideal) x0 x1 x2 (ix1 t) = rowMax (logit x0 x1 x2 t) := by
  have h : S32768x64.Reduces [1] S32768 := by decide
  rw [val_main_v7_apply, val_main_v6_apply, val_main_cst_0_apply]
  unfold val_main_v5
  rw [Host.reduce_eq_fold_single FloatOps.maximumf _ _ reducesTo_S32768x64_S32768_d1 h h_S_ (ix1 t)]
  have hf : (val_main_v4 (F := Ideal) x0 x1 x2 ∘ h.lift (ix1 t)) = logit x0 x1 x2 t :=
    funext fun e => (congrArg (val_main_v4 (F := Ideal) x0 x1 x2) (lift_at h t e)).trans (logit_at x0 x1 x2 t e)
  rw [hf]
  exact max_negInf_rowMax _

theorem shift_idx (t : Fin 32768) (e : Fin 64) : idx_main_v8 (idx_main_v9 (ix2 t e)) = ix1 t :=
  funext fun a => Fin.ext (by match a with | ⟨0, _⟩ => rfl)

/-- The shifted exponential at `(t, e)`. -/
theorem exp_at (t : Fin 32768) (e : Fin 64) :
    val_main_v11 (F := Ideal) x0 x1 x2 (ix2 t e) = Ideal.exp (logit x0 x1 x2 t e - rowMax (logit x0 x1 x2 t)) := by
  rw [val_main_v11_apply, val_main_v10_apply, val_main_v9_apply, val_main_v8_apply, logit_at, shift_idx, rowMax_at]
  rfl

theorem sum_idx (t : Fin 32768) (k : Fin 64) : idx_main_v12 (ix1 t) k = ix2 t k :=
  funext fun a => Fin.ext (by match a with | ⟨0, _⟩ => rfl | ⟨1, _⟩ => rfl)

/-- The row's sum of shifted exponentials: the zero it starts from adds nothing. -/
theorem rowSum_at (t : Fin 32768) : val_main_v12 (F := Ideal) x0 x1 x2 (ix1 t)
    = ∑ e' : Fin 64, Ideal.exp (logit x0 x1 x2 t e' - rowMax (logit x0 x1 x2 t)) := by
  rw [val_main_v12_apply, val_main_cst_1_apply]
  simp only [sum_idx, exp_at]
  show Ideal.ofBits .f32 0x00000000#32 + _ = _
  rw [Ideal.ofBits_zero_f32, zero_add]

theorem denom_idx (t : Fin 32768) (e : Fin 64) : idx_main_v13 (idx_main_v14 (ix2 t e)) = ix1 t :=
  funext fun a => Fin.ext (by match a with | ⟨0, _⟩ => rfl)

theorem prob_at (t : Fin 32768) (e : Fin 64) :
    val_main_v15 (F := Ideal) x0 x1 x2 (ix2 t e) = softmaxRow (logit x0 x1 x2 t) e := by
  rw [val_main_v15_apply, val_main_v14_apply, val_main_v13_apply, exp_at, denom_idx, rowSum_at]
  rfl

theorem probs_eq : val_main_v15 (F := Ideal) x0 x1 x2 = probs x0 x1 x2 := by
  funext i
  obtain ⟨t, e, rfl⟩ : ∃ (t : Fin 32768) (e : Fin 64), i = ix2 t e := ⟨i 0, i 1, eq_ix2 i⟩
  exact prob_at x0 x1 x2 t e

end Cert.Router.Reference

end
-- ==== Proof.Packing.lean ====
/-
  The packed layout. The kernel views the 32768 × 768 token matrix as 16384 × 1536 — two consecutive tokens per row, the same
  elements in the same row-major order — and produces 16384 × 128 results, the two tokens' 64 entries side by side, which are
  then viewed back as 32768 × 64. Packed row `r` holds tokens `2r` and `2r + 1`; token number `h` of the row occupies columns
  `768 h + k` of the packed input and lanes `64 h + e` of the packed output. A reshape keeps row-major positions, and
  `(2r + h) · 768 + k = r · 1536 + (768 h + k)`, `r · 128 + (64 h + e) = (2r + h) · 64 + e`: so the packed arrays, read back,
  are the plain ones.
-/
import proofs.«137286_g17575006175839_cont_sun_c4_656_15_alg».proof.Proof.RouterSpec
import Idealize.ShloMosaic.Lib.Pipeline.Value

noncomputable section

open scoped BigOperators

namespace Cert.Router

open Idealize.ShloMosaic Idealize.ShloMosaic.ValueIdx

/-- The packed token matrix's, the bias row's and the packed result's index sets. -/
abbrev PX : Shape := ⟨2, ![16384, 1536]⟩
abbrev BR : Shape := ⟨2, ![1, 64]⟩
abbrev PS : Shape := ⟨2, ![16384, 128]⟩

/-- Lane `64 h + e` of a packed result row: entry `e` of the row's token number `h`. -/
def lane (h : Fin 2) (e : Fin 64) : Fin 128 := ⟨64 * h.val + e.val, by have := h.isLt; have := e.isLt; omega⟩
/-- Column `768 h + k` of a packed input row: feature `k` of the row's token number `h`. -/
def col (h : Fin 2) (k : Fin 768) : Fin 1536 := ⟨768 * h.val + k.val, by have := h.isLt; have := k.isLt; omega⟩
/-- Token number `h` of packed row `r`. -/
def tok (r : Fin 16384) (h : Fin 2) : Fin 32768 := ⟨2 * r.val + h.val, by have := h.isLt; have := r.isLt; omega⟩

/-- Every lane is some token's some entry. -/
theorem lane_split (q : Fin 128) : ∃ (h : Fin 2) (e : Fin 64), q = lane h e :=
  ⟨⟨q.val / 64, by have := q.isLt; omega⟩, ⟨q.val % 64, by omega⟩, Fin.ext (by show q.val = 64 * (q.val / 64) + q.val % 64; omega)⟩

/-- Every token is some packed row's first or second. -/
theorem tok_split (t : Fin 32768) : ∃ (r : Fin 16384) (h : Fin 2), t = tok r h :=
  ⟨⟨t.val / 2, by have := t.isLt; omega⟩, ⟨t.val % 2, by omega⟩, Fin.ext (by show t.val = 2 * (t.val / 2) + t.val % 2; omega)⟩

/-- The logits in the packed layout: lane `64 h + e` of row `r` is token `2r + h`'s logit for expert `e`. -/
def packedLogits (x : XS.Idx → EReal) (W : WS.Idx → EReal) (b : BS.Idx → EReal) : PS.Idx → EReal :=
  fun i => logit x W b ⟨2 * (i 0).val + (i 1).val / 64, by have := idx2_lt0 i; have := idx2_lt1 i; omega⟩
    ⟨(i 1).val % 64, by omega⟩

/-- The probabilities in the packed layout. -/
def packedProbs (x : XS.Idx → EReal) (W : WS.Idx → EReal) (b : BS.Idx → EReal) : PS.Idx → EReal :=
  fun i => softmaxRow (logit x W b ⟨2 * (i 0).val + (i 1).val / 64, by have := idx2_lt0 i; have := idx2_lt1 i; omega⟩)
    ⟨(i 1).val % 64, by omega⟩

section
variable (x : XS.Idx → EReal) (W : WS.Idx → EReal) (b : BS.Idx → EReal)

theorem unlane (r : Fin 16384) (h : Fin 2) (e : Fin 64) :
    (⟨2 * r.val + (lane h e).val / 64, by have := h.isLt; have := e.isLt; have := r.isLt; show 2 * r.val + (64 * h.val + e.val) / 64 < 32768; omega⟩ : Fin 32768) = tok r h
    ∧ (⟨(lane h e).val % 64, by omega⟩ : Fin 64) = e :=
  ⟨Fin.ext (by have := h.isLt; have := e.isLt; show 2 * r.val + (64 * h.val + e.val) / 64 = 2 * r.val + h.val; omega),
   Fin.ext (by have := h.isLt; have := e.isLt; show (64 * h.val + e.val) % 64 = e.val; omega)⟩

theorem packedLogits_at (r : Fin 16384) (h : Fin 2) (e : Fin 64) :
    packedLogits x W b (ix2 r (lane h e)) = logit x W b (tok r h) e := by
  obtain ⟨e1, e2⟩ := unlane r h e
  show logit x W b ⟨2 * r.val + (lane h e).val / 64, _⟩ ⟨(lane h e).val % 64, _⟩ = _
  rw [e1, e2]

theorem packedProbs_at (r : Fin 16384) (h : Fin 2) (e : Fin 64) :
    packedProbs x W b (ix2 r (lane h e)) = softmaxRow (logit x W b (tok r h)) e := by
  obtain ⟨e1, e2⟩ := unlane r h e
  show softmaxRow (logit x W b ⟨2 * r.val + (lane h e).val / 64, _⟩) ⟨(lane h e).val % 64, _⟩ = _
  rw [e1, e2]

end

/-! ## The three reshapes, read at an entry -/

section
variable {α : Type}

/-- The packed token matrix: column `768 h + k` of packed row `r` is feature `k` of token `2r + h`. -/
theorem packX_at (X : XS.Idx → α) (hc : XS.ShapeCasts PX) (r : Fin 16384) (h : Fin 2) (k : Fin 768) :
    shapeCast PX X hc (ix2 r (col h k)) = X (ix2 (tok r h) k) := by
  refine shapeCast_apply X hc (ix2 r (col h k)) (ix2 (tok r h) k) ?_
  rw [Shape.rowMajor_val_two, Shape.rowMajor_val_two]
  show (2 * r.val + h.val) * 768 + k.val = r.val * 1536 + (768 * h.val + k.val)
  omega

/-- The bias as a 1 × 64 row. -/
theorem biasRow_at (B : BS.Idx → α) (hc : BS.ShapeCasts BR) (e : Fin 64) :
    shapeCast BR B hc (ix2 (0 : Fin 1) e) = B (ix1 e) := by
  refine shapeCast_apply B hc (ix2 (0 : Fin 1) e) (ix1 e) ?_
  rw [Shape.rowMajor_val_one, Shape.rowMajor_val_two]
  show e.val = 0 * 64 + e.val
  omega

/-- A packed result viewed back: entry `(2r + h, e)` is lane `64 h + e` of packed row `r`. -/
theorem unpack_at (P : PS.Idx → α) (hc : PS.ShapeCasts OS) (r : Fin 16384) (h : Fin 2) (e : Fin 64) :
    shapeCast OS P hc (ix2 (tok r h) e) = P (ix2 r (lane h e)) := by
  refine shapeCast_apply P hc (ix2 (tok r h) e) (ix2 r (lane h e)) ?_
  rw [Shape.rowMajor_val_two, Shape.rowMajor_val_two]
  show r.val * 128 + (64 * h.val + e.val) = (2 * r.val + h.val) * 64 + e.val
  omega

end

/-- The packed logits viewed back are the logits … -/
theorem unpack_logits (x : XS.Idx → EReal) (W : WS.Idx → EReal) (b : BS.Idx → EReal) (hc : PS.ShapeCasts OS) :
    shapeCast OS (packedLogits x W b) hc = logits x W b := by
  funext i
  obtain ⟨t, e, rfl⟩ : ∃ (t : Fin 32768) (e : Fin 64), i = ix2 t e := ⟨i 0, i 1, eq_ix2 i⟩
  obtain ⟨r, h, rfl⟩ := tok_split t
  rw [unpack_at, packedLogits_at, logits_ix2]

/-- … and the packed probabilities viewed back are the probabilities. -/
theorem unpack_probs (x : XS.Idx → EReal) (W : WS.Idx → EReal) (b : BS.Idx → EReal) (hc : PS.ShapeCasts OS) :
    shapeCast OS (packedProbs x W b) hc = probs x W b := by
  funext i
  obtain ⟨t, e, rfl⟩ : ∃ (t : Fin 32768) (e : Fin 64), i = ix2 t e := ⟨i 0, i 1, eq_ix2 i⟩
  obtain ⟨r, h, rfl⟩ := tok_split t
  rw [unpack_at, packedProbs_at, probs_ix2]

end Cert.Router

end
-- ==== Proof.BodyRows.lean ====
/-
  What the kernel body computes from the pieces it loads, read one entry at a time.

  The body holds a block of 2048 packed rows. It loads the expert matrix `W` (64 × 768), the bias as a 1 × 64 row, and the
  left and right halves of the packed rows (each 2048 × 768: one token per row). For each half it forms
  `l = half · Wᵀ + bias` (a matrix product into a zero accumulator, so a plain sum over `k`), and the row softmax of `l`
  (row maximum from −∞, spread back along the row; exponential of the difference; row sum from zero, spread back; quotient).
  It stores the two `l` side by side (lanes 0–63 and 64–127), and likewise the two softmaxes.
-/
import proofs.«137286_g17575006175839_cont_sun_c4_656_15_alg».proof.Proof.Gen.KernelIdeal.Skeleton
import proofs.«137286_g17575006175839_cont_sun_c4_656_15_alg».proof.Proof.RouterSpec
import proofs.«137286_g17575006175839_cont_sun_c4_656_15_alg».proof.Proof.Packing
import Idealize.ShloMosaic.Lib.Pipeline.Value
import Idealize.ShloMosaic.Lib.ValueIdx
import Idealize.ShloMosaic.PureOps.Ideal.Laws

noncomputable section

open scoped BigOperators

namespace Cert.Router.Body

open Cert.KernelIdeal Cert.KernelIdeal.Gen
open Idealize.ShloMosaic Idealize.ShloMosaic.ValueIdx Cert.Router

/-- One token's logits from the loaded pieces: row `p` of a loaded half against every row of `W`, plus the bias row. -/
def rowLogit (w : Vec Ideal S64x768 .f32) (bias : Vec Ideal S1x64 .f32) (half : Vec Ideal S2048x768 .f32) (p : Fin 2048) :
    Fin 64 → EReal :=
  fun e => (∑ k : Fin 768, half (ix2 p k) * w (ix2 e k)) + bias (ix2 (0 : Fin 1) e)

/-! ## The matrix product at an entry -/

/-- The body's contraction: axis 1 of the left operand against axis 1 of the right. -/
abbrev D : DotDims S2048x768 S64x768 S2048x64 := dot_S2048x768_S64x768_S2048x64_1_1_0_0_n_n

theorem lhs_row (i : S2048x64.Idx) (q : D.contr.Idx) : (D.lhsIdx i q 0).val = (i 0).val := by
  unfold DotDims.lhsIdx
  rw [dif_neg (show ¬(0 : Fin S2048x768.rank) ∈ D.lhsBatch by decide),
    dif_pos (show (0 : Fin S2048x768.rank) ∈ D.lhsNonContracting by decide)]
  rfl
theorem lhs_col (i : S2048x64.Idx) (q : D.contr.Idx) : (D.lhsIdx i q 1).val = (q ⟨0, by decide⟩).val :=
  D.lhsIdx_val_of_single rfl i q
theorem rhs_row (i : S2048x64.Idx) (q : D.contr.Idx) : (D.rhsIdx i q 0).val = (i 1).val := by
  unfold DotDims.rhsIdx
  rw [dif_neg (show ¬(0 : Fin S64x768.rank) ∈ D.rhsBatch by decide),
    dif_pos (show (0 : Fin S64x768.rank) ∈ D.rhsNonContracting by decide)]
  rfl
theorem rhs_col (i : S2048x64.Idx) (q : D.contr.Idx) : (D.rhsIdx i q 1).val = (q ⟨0, by decide⟩).val :=
  D.rhsIdx_val_of_single rfl i q

/-- Into a zero accumulator the product at `(p, e)` is the sum over `k` of `lhs p k · rhs e k`. -/
theorem matmul_at (lhs : FVec Ideal S2048x768 .f32) (rhs : FVec Ideal S64x768 .f32) (p : Fin 2048) (e : Fin 64) :
    matmul D none lhs rhs (constant (F := Ideal) S2048x64 .f32 0x00000000#32) (ix2 p e)
      = ∑ k : Fin 768, lhs (ix2 p k) * rhs (ix2 e k) := by
  refine (Ideal.matmul_constant_zero_apply D none lhs rhs (ix2 p e)).trans ?_
  rw [← Equiv.sum_comp (contrEquiv1 D 768 rfl rfl).symm]
  refine Finset.sum_congr rfl fun k _ => ?_
  have hk := contrEquiv1_symm_val D 768 rfl rfl k
  have el : D.lhsIdx (ix2 p e) ((contrEquiv1 D 768 rfl rfl).symm k) = ix2 p k := funext fun a => Fin.ext (by
    match a with
    | ⟨0, _⟩ => exact lhs_row _ _
    | ⟨1, _⟩ => exact (lhs_col _ _).trans hk)
  have er : D.rhsIdx (ix2 p e) ((contrEquiv1 D 768 rfl rfl).symm k) = ix2 e k := funext fun a => Fin.ext (by
    match a with
    | ⟨0, _⟩ => exact rhs_row _ _
    | ⟨1, _⟩ => exact (rhs_col _ _).trans hk)
  rw [el, er]

/-! ## One half's logits -/

theorem pay2_at (w : Vec Ideal S64x768 .f32) (bias : Vec Ideal S1x64 .f32) (half : Vec Ideal S2048x768 .f32)
    (p : Fin 2048) (e : Fin 64) : k0_pay2 (F := Ideal) w bias half (ix2 p e) = rowLogit w bias half p e := by
  unfold k0_pay2 k0_pay1 rowLogit
  dsimp only
  rw [shapeCast_self, shapeCast_self, addf_apply, matmul_at]
  refine congrArg (_ + ·) (broadcastTo_apply bias _ (ix2 p e) (ix2 (0 : Fin 1) e) fun a => ?_)
  match a with
  | ⟨0, _⟩ => show (0 : Nat) = if (1 : Nat) = 1 then 0 else p.val; rw [if_pos rfl]
  | ⟨1, _⟩ => show e.val = if (64 : Nat) = 1 then 0 else e.val; rw [if_neg (by decide)]

/-- The two halves go through the same operations. -/
theorem pay3_eq {F : FTy → Type} [FloatOps F] (w : Vec F S64x768 .f32) (bias : Vec F S1x64 .f32) (half : Vec F S2048x768 .f32) :
    k0_pay3 w bias half = k0_pay2 w bias half := rfl

/-! ## The row softmax of a 2048 × 64 block -/

section Soft
variable {F : FTy → Type} [FloatOps F]

/-- A per-row value put at every lane of its row (a column kept as a unit axis, then broadcast along it). -/
def spread (v : FVec F S2048 .f32) : FVec F S2048x64 .f32 :=
  broadcastTo S2048x64 (shapeCast S2048x1 v shapeCasts_S2048_S2048x1) broadcasts_S2048x1_S2048x64

/-- The block with each row's maximum subtracted, exponentiated. -/
def shifted (L : FVec F S2048x64 .f32) : FVec F S2048x64 .f32 :=
  exp (subf L (spread (multiReduction .maximumf [1] S2048 L 0xFF800000#32 reduces_S2048x64_S2048 (.inl rfl) rfl)))

/-- The row softmax of the block, as the body computes it. -/
def softBlock (L : FVec F S2048x64 .f32) : FVec F S2048x64 .f32 :=
  divf (shifted L) (spread (multiReduction .add [1] S2048 (shifted L) 0x00000000#32 reduces_S2048x64_S2048 (.inl rfl) rfl))

/-- The stored logits are the two halves' side by side … -/
theorem pay4_eq (w : Vec F S64x768 .f32) (bias : Vec F S1x64 .f32) (left right : Vec F S2048x768 .f32) :
    k0_pay4 w bias left right
      = concatenate S2048x128 1 [⟨S2048x64, k0_pay2 w bias left⟩, ⟨S2048x64, k0_pay2 w bias right⟩]
          concatenates_S2048x64_S2048x64_S2048x128_d1 := rfl

/-- … and the stored probabilities their row softmaxes side by side. -/
theorem pay5_eq (w : Vec F S64x768 .f32) (bias : Vec F S1x64 .f32) (left right : Vec F S2048x768 .f32) :
    k0_pay5 w bias left right
      = concatenate S2048x128 1 [⟨S2048x64, softBlock (k0_pay2 w bias left)⟩, ⟨S2048x64, softBlock (k0_pay2 w bias right)⟩]
          concatenates_S2048x64_S2048x64_S2048x128_d1 := rfl

theorem spread_at (v : FVec F S2048 .f32) (p : Fin 2048) (e : Fin 64) : spread v (ix2 p e) = v (ix1 p) := by
  unfold spread
  refine (broadcastTo_apply _ broadcasts_S2048x1_S2048x64 (ix2 p e) (ix2 p (0 : Fin 1)) fun a => ?_).trans
    (shapeCast_apply v shapeCasts_S2048_S2048x1 (ix2 p (0 : Fin 1)) (ix1 p) ?_)
  · match a with
    | ⟨0, _⟩ => show p.val = if (2048 : Nat) = 1 then 0 else p.val; rw [if_neg (by decide)]
    | ⟨1, _⟩ => show (0 : Nat) = if (1 : Nat) = 1 then 0 else e.val; rw [if_pos rfl]
  · rw [Shape.rowMajor_val_one, Shape.rowMajor_val_two]
    show p.val = p.val * 1 + 0
    omega

end Soft

/-- The index a one-axis reduction of the block reads: row `p`, lane `e`. -/
theorem lift_at (h : S2048x64.Reduces [1] S2048) (p : Fin 2048) (e : Fin 64) : h.lift (ix1 p) e = ix2 p e :=
  funext fun a => Fin.ext (by match a with | ⟨0, _⟩ => rfl | ⟨1, _⟩ => rfl)

theorem blockMax_at (L : FVec Ideal S2048x64 .f32) (p : Fin 2048) :
    multiReduction .maximumf [1] S2048 L 0xFF800000#32 reduces_S2048x64_S2048 (.inl rfl) rfl (ix1 p)
      = rowMax fun e => L (ix2 p e) := by
  refine (Ideal.multiReduction_maximumf_single L 0xFF800000#32 reduces_S2048x64_S2048 (.inl rfl) rfl (ix1 p)).trans ?_
  have hf : (L ∘ reduces_S2048x64_S2048.lift (ix1 p)) = fun e : Fin 64 => L (ix2 p e) :=
    funext fun e => congrArg L (lift_at _ p e)
  rw [hf]
  rfl

theorem blockSum_at (L : FVec Ideal S2048x64 .f32) (p : Fin 2048) :
    multiReduction .add [1] S2048 L 0x00000000#32 reduces_S2048x64_S2048 (.inl rfl) rfl (ix1 p)
      = ∑ e : Fin 64, L (ix2 p e) := by
  refine (Ideal.multiReduction_add_single L 0x00000000#32 reduces_S2048x64_S2048 (.inl rfl) rfl (ix1 p)).trans ?_
  exact Finset.sum_congr rfl fun e _ => congrArg L (lift_at _ p e)

theorem shifted_at (L : FVec Ideal S2048x64 .f32) (p : Fin 2048) (e : Fin 64) :
    shifted L (ix2 p e) = Ideal.exp (L (ix2 p e) - rowMax fun e' => L (ix2 p e')) := by
  have h : shifted L (ix2 p e) = Ideal.exp (L (ix2 p e)
      - spread (multiReduction .maximumf [1] S2048 L 0xFF800000#32 reduces_S2048x64_S2048 (.inl rfl) rfl) (ix2 p e)) := rfl
  rw [h, spread_at, blockMax_at]

/-- The body's row softmax is the specification's, row by row. -/
theorem softBlock_at (L : FVec Ideal S2048x64 .f32) (p : Fin 2048) (e : Fin 64) :
    softBlock L (ix2 p e) = softmaxRow (fun e' => L (ix2 p e')) e := by
  have h : softBlock L (ix2 p e) = Ideal.div (shifted L (ix2 p e))
      (spread (multiReduction .add [1] S2048 (shifted L) 0x00000000#32 reduces_S2048x64_S2048 (.inl rfl) rfl) (ix2 p e)) := rfl
  rw [h, spread_at, blockSum_at]
  simp only [shifted_at]
  rfl

/-! ## The two halves side by side -/

theorem left_at (A B : FVec Ideal S2048x64 .f32) (p : Fin 2048) (e : Fin 64) :
    concatenate S2048x128 1 [⟨S2048x64, A⟩, ⟨S2048x64, B⟩] concatenates_S2048x64_S2048x64_S2048x128_d1 (ix2 p (lane 0 e))
      = A (ix2 p e) :=
  concatenate_pair_apply_left 1 A B concatenates_S2048x64_S2048x64_S2048x128_d1 (ix2 p (lane 0 e)) rfl (ix2 p e) fun b => by
    match b with
    | ⟨0, _⟩ => rfl
    | ⟨1, _⟩ => show e.val = 64 * 0 + e.val; omega

theorem right_at (A B : FVec Ideal S2048x64 .f32) (p : Fin 2048) (e : Fin 64) :
    concatenate S2048x128 1 [⟨S2048x64, A⟩, ⟨S2048x64, B⟩] concatenates_S2048x64_S2048x64_S2048x128_d1 (ix2 p (lane 1 e))
      = B (ix2 p e) :=
  concatenate_pair_apply_right 1 A B concatenates_S2048x64_S2048x64_S2048x128_d1 (ix2 p (lane 1 e)) rfl rfl (ix2 p e)
    (fun b hb => by
      match b with
      | ⟨0, _⟩ => rfl
      | ⟨1, _⟩ => exact absurd rfl hb)
    (by show e.val + 64 = 64 * 1 + e.val; omega)

/-! ## The stored values at an entry -/

variable (w : Vec Ideal S64x768 .f32) (bias : Vec Ideal S1x64 .f32) (left right : Vec Ideal S2048x768 .f32)

theorem logits_left (p : Fin 2048) (e : Fin 64) :
    k0_pay4 (F := Ideal) w bias left right (ix2 p (lane 0 e)) = rowLogit w bias left p e := by
  rw [pay4_eq, left_at, pay2_at]

theorem logits_right (p : Fin 2048) (e : Fin 64) :
    k0_pay4 (F := Ideal) w bias left right (ix2 p (lane 1 e)) = rowLogit w bias right p e := by
  rw [pay4_eq, right_at, pay2_at]

theorem probs_left (p : Fin 2048) (e : Fin 64) :
    k0_pay5 (F := Ideal) w bias left right (ix2 p (lane 0 e)) = softmaxRow (rowLogit w bias left p) e := by
  rw [pay5_eq, left_at, softBlock_at]
  simp only [pay2_at]

theorem probs_right (p : Fin 2048) (e : Fin 64) :
    k0_pay5 (F := Ideal) w bias left right (ix2 p (lane 1 e)) = softmaxRow (rowLogit w bias right p) e := by
  rw [pay5_eq, right_at, softBlock_at]
  simp only [pay2_at]

end Cert.Router.Body

end
-- ==== Proof.Blocks.lean ====
/-
  From the body's block to the whole packed arrays.

  Grid point `t` (of 8) works on packed rows `2048 t … 2048 t + 2047`: its input block is those rows of the packed token
  matrix (all 1536 columns), its two output blocks are those rows of the packed results (all 128 lanes); the expert matrix
  and the bias row are fetched whole. The packed token matrix is the reshape of `x`, the bias row the reshape of `b`.
  So row `p` of the point's block is packed row `r = 2048 t + p`, whose halves are tokens `2r` and `2r + 1`; what the body
  stores at lane `64 h + e` of that row is token `2r + h`'s logit for expert `e` (respectively its probability): the
  point's output blocks are its rows of `packedLogits` and `packedProbs`. The eight points' blocks tile the 16384 rows, so
  after the run the two result arrays hold those two functions everywhere.
-/
import proofs.«137286_g17575006175839_cont_sun_c4_656_15_alg».proof.Proof.Gen.KernelIdeal.Frame
import proofs.«137286_g17575006175839_cont_sun_c4_656_15_alg».proof.Proof.BodyRows
import proofs.«137286_g17575006175839_cont_sun_c4_656_15_alg».proof.Proof.Packing
import Idealize.ShloMosaic.Lib.Pipeline.Value
import Idealize.ShloMosaic.Lib.StableHlo.Run
import Idealize.ShloMosaic.Lib.Tactic

noncomputable section

open scoped BigOperators

namespace Cert.Router.Kernel

open Cert.KernelIdeal Cert.KernelIdeal.Gen
open Idealize.ShloMosaic Idealize.ShloMosaic.TcCoe Idealize.SL.Sem Idealize.ShloMosaic.ValueIdx
open Idealize.ShloMosaic.Pipeline (Dat)
open Cert.Router Cert.Router.Body

theorem hz : (![0, 0] : Fin 2 → Nat) = fun _ => 0 := funext fun a => by fin_cases a <;> rfl

/-! ## A block, over variables: rows of the body's stores are rows of the packed results -/

/-- Token number `h` of every row of a packed block. -/
def halfOf (x0 : Vec Ideal S2048x1536 .f32) (h : Fin 2) : Vec Ideal S2048x768 .f32 :=
  fun i => x0 (ix2 (i 0) (col h (i 1)))

/-- The body's two loads of the packed block are its two halves. -/
theorem ld_left (x0 : Vec Ideal S2048x1536 .f32) : View.ld x0 r0_2 = halfOf x0 0 := by
  funext i
  obtain ⟨p, k, rfl⟩ : ∃ (p : Fin 2048) (k : Fin 768), i = ix2 p k := ⟨i 0, i 1, eq_ix2 i⟩
  show x0 (r0_2.emb (ix2 p k)) = x0 (ix2 p (col 0 k))
  refine congrArg x0 (funext fun a => Fin.ext ?_)
  match a with
  | ⟨0, _⟩ => simp only [Rect.emb_apply, Rect.off_unit, Rect.stride_unit]; show 0 + 1 * p.val = p.val; omega
  | ⟨1, _⟩ => simp only [Rect.emb_apply, Rect.off_unit, Rect.stride_unit]; show 0 + 1 * k.val = 768 * 0 + k.val; omega

theorem ld_right (x0 : Vec Ideal S2048x1536 .f32) : View.ld x0 r0_3 = halfOf x0 1 := by
  funext i
  obtain ⟨p, k, rfl⟩ : ∃ (p : Fin 2048) (k : Fin 768), i = ix2 p k := ⟨i 0, i 1, eq_ix2 i⟩
  show x0 (r0_3.emb (ix2 p k)) = x0 (ix2 p (col 1 k))
  refine congrArg x0 (funext fun a => Fin.ext ?_)
  match a with
  | ⟨0, _⟩ => simp only [Rect.emb_apply, Rect.off_unit, Rect.stride_unit]; show 0 + 1 * p.val = p.val; omega
  | ⟨1, _⟩ => simp only [Rect.emb_apply, Rect.off_unit, Rect.stride_unit]; show 768 + 1 * k.val = 768 * 1 + k.val; omega

section Block
variable (x0 : Vec Ideal S2048x1536 .f32) (x1 : Vec Ideal S64x768 .f32) (x2 : Vec Ideal S1x64 .f32)
  (X : XS.Idx → EReal) (W : WS.Idx → EReal) (B : BS.Idx → EReal) (r : Fin 16384) (p : Fin 2048)
  (h0 : ∀ h k, x0 (ix2 p (col h k)) = X (ix2 (tok r h) k))
  (h1 : ∀ e k, x1 (ix2 e k) = W (ix2 e k))
  (h2 : ∀ e, x2 (ix2 (0 : Fin 1) e) = B (ix1 e))
include h0 h1 h2

/-- When row `p` of the block is packed row `r` of the arguments, its half `h` yields token `2r + h`'s logits. -/
theorem rowLogit_half (h : Fin 2) : rowLogit x1 x2 (halfOf x0 h) p = logit X W B (tok r h) := by
  funext e
  unfold rowLogit logit
  simp only [h1, h2]
  exact congrArg (· + B (ix1 e)) (Finset.sum_congr rfl fun k _ => congrArg (· * W (ix2 e k)) (h0 h k))

theorem out3_block (q : Fin 128) : out0_3 x0 x1 x2 (ix2 p q) = packedLogits X W B (ix2 r q) := by
  obtain ⟨h, e, rfl⟩ := lane_split q
  unfold out0_3
  rw [View.canon_unit_zero hz, View.ld_unit_zero (S := S64x768) hz, View.ld_unit_zero (S := S1x64) hz, ld_left, ld_right,
    packedLogits_at, ← rowLogit_half x0 x1 x2 X W B r p h0 h1 h2 h]
  match h with
  | ⟨0, _⟩ => exact logits_left x1 x2 (halfOf x0 0) (halfOf x0 1) p e
  | ⟨1, _⟩ => exact logits_right x1 x2 (halfOf x0 0) (halfOf x0 1) p e

theorem out4_block (q : Fin 128) : out0_4 x0 x1 x2 (ix2 p q) = packedProbs X W B (ix2 r q) := by
  obtain ⟨h, e, rfl⟩ := lane_split q
  unfold out0_4
  rw [View.canon_unit_zero hz, View.ld_unit_zero (S := S64x768) hz, View.ld_unit_zero (S := S1x64) hz, ld_left, ld_right,
    packedProbs_at, ← rowLogit_half x0 x1 x2 X W B r p h0 h1 h2 h]
  match h with
  | ⟨0, _⟩ => exact probs_left x1 x2 (halfOf x0 0) (halfOf x0 1) p e
  | ⟨1, _⟩ => exact probs_right x1 x2 (halfOf x0 0) (halfOf x0 1) p e

end Block

/-! ## The point's blocks, read off the arguments -/

variable (m : (ℓ : Loc nD τ sig) → Buf (Elt Ideal) ℓ) (ρ : Dev nD → PrngReg)

/-- Packed row `2048 t + p`: row `p` of point `t`'s blocks. -/
def row (t : Fin cfg0.N) (p : Fin 2048) : Fin 16384 :=
  ⟨2048 * t.val + p.val, by have := t.isLt; have hN : cfg0.N = 8 := N_0; have := p.isLt; omega⟩

/-- The printed index maps over the grid: the packed input and both outputs move one block of rows per point, the expert
    matrix and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The packed token matrix the region finds is the reshape of `x` … -/
theorem V_packed (c : Dev nD) : (V m c main_v0 : S16384x1536.Idx → EReal)
    = shapeCast S16384x1536 (m ((c : Thread nD τ).loc main_arg0)) shapeCasts_S32768x768_S16384x1536 := by
  show StableHlo.after hostOps0 (fun b => m (c, b)) (Proc.devRef .tc main_v0) = _
  after_results
  rfl

/-- … and the bias row the reshape of `b`. -/
theorem V_biasRow (c : Dev nD) : (V m c main_v1 : S1x64.Idx → EReal)
    = shapeCast S1x64 (m ((c : Thread nD τ).loc main_arg2)) shapeCasts_S64_S1x64 := by
  show StableHlo.after hostOps0 (fun b => m (c, b)) (Proc.devRef .tc main_v1) = _
  after_results
  rfl

theorem x_at (c : Dev nD) (t : Fin cfg0.N) (p : Fin 2048) (h : Fin 2) (k : Fin 768) :
    (iblk m c 0 t : Vec Ideal S2048x1536 .f32) (ix2 p (col h k))
      = (m ((c : Thread nD τ).loc main_arg0) : XS.Idx → EReal) (ix2 (tok (row t p) h) k) := by
  obtain ⟨e0, e1, -⟩ := idx_facts t
  refine Eq.trans ?_ ((congrFun (V_packed m c) (ix2 (row t p) (col h k))).trans (packX_at _ _ (row t p) h k))
  show V m c main_v0 (((cfg0.win 0).blk t).view.emb (ix2 p (col h k))) = V m c main_v0 (ix2 (row t p) (col h k))
  refine congrArg (V m c main_v0) (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 1536 + 1 * (col h k).val = (col h k).val; rw [e1]; omega

theorem w_at (c : Dev nD) (t : Fin cfg0.N) (e : Fin 64) (k : Fin 768) :
    (iblk m c 1 t : Vec Ideal S64x768 .f32) (ix2 e k) = (m ((c : Thread nD τ).loc main_arg1) : WS.Idx → EReal) (ix2 e k) := by
  obtain ⟨-, -, e0, e1, -⟩ := idx_facts t
  refine Eq.trans ?_ (congrFun (V_main_arg1 m c) (ix2 e k))
  show V m c main_arg1 (((cfg0.win 1).blk t).view.emb (ix2 e k)) = V m c main_arg1 (ix2 e k)
  refine congrArg (V m c main_arg1) (funext fun a => Fin.ext ?_)
  match a with
  | ⟨0, _⟩ => show win0_1.index t (0 : Fin 2) * 64 + 1 * e.val = e.val; rw [e0]; omega
  | ⟨1, _⟩ => show win0_1.index t (1 : Fin 2) * 768 + 1 * k.val = k.val; rw [e1]; omega

theorem b_at (c : Dev nD) (t : Fin cfg0.N) (e : Fin 64) :
    (iblk m c 2 t : Vec Ideal S1x64 .f32) (ix2 (0 : Fin 1) e) = (m ((c : Thread nD τ).loc main_arg2) : BS.Idx → EReal) (ix1 e) := by
  obtain ⟨-, -, -, -, e0, e1, -⟩ := idx_facts t
  refine Eq.trans ?_ ((congrFun (V_biasRow m c) (ix2 (0 : Fin 1) e)).trans (biasRow_at _ _ e))
  show V m c main_v1 (((cfg0.win 2).blk t).view.emb (ix2 (0 : Fin 1) e)) = V m c main_v1 (ix2 (0 : Fin 1) e)
  refine congrArg (V m c main_v1) (funext fun a => Fin.ext ?_)
  match a with
  | ⟨0, _⟩ => show win0_2.index t (0 : Fin 2) * 1 + 1 * 0 = 0; rw [e0]
  | ⟨1, _⟩ => show win0_2.index t (1 : Fin 2) * 64 + 1 * e.val = e.val; rw [e1]; omega

/-! ## What each point writes back -/

/-- The three arguments as core `c` holds them at launch. -/
abbrev xArg (c : Dev nD) : XS.Idx → EReal := m ((c : Thread nD τ).loc main_arg0)
abbrev wArg (c : Dev nD) : WS.Idx → EReal := m ((c : Thread nD τ).loc main_arg1)
abbrev bArg (c : Dev nD) : BS.Idx → EReal := m ((c : Thread nD τ).loc main_arg2)

/-- Point `t` writes back its rows of the packed logits. -/
theorem flushed_logits (c : Dev nD) (t : Fin cfg0.N) :
    (dats m 0 c).flushed 3 t = ((cfg0.win 3).blk t).view.read (Elt Ideal) (packedLogits (xArg m c) (wArg m c) (bArg m c)) := by
  show (cfg0.win 3).cut (grid0.coords t) ((dats m 0 c).after 3 t) = _
  rw [after0_3]
  obtain ⟨-, -, -, -, -, -, e0, e1, -⟩ := idx_facts t
  funext y
  obtain ⟨p, q, rfl⟩ : ∃ (p : Fin 2048) (q : Fin 128), y = ix2 p q := ⟨y 0, y 1, eq_ix2 y⟩
  have hemb : ((cfg0.win 3).blk t).view.emb (ix2 p q) = (ix2 (row t p) q : S16384x128.Idx) := funext fun a => Fin.ext (by
    match a with
    | ⟨0, _⟩ => show win0_3.index t (0 : Fin 2) * 2048 + 1 * p.val = 2048 * t.val + p.val; rw [e0]; omega
    | ⟨1, _⟩ => show win0_3.index t (1 : Fin 2) * 128 + 1 * q.val = q.val; rw [e1]; omega)
  show out0_3 (iblk m c 0 t) (iblk m c 1 t) (iblk m c 2 t) (ix2 p q)
    = packedLogits (xArg m c) (wArg m c) (bArg m c) (((cfg0.win 3).blk t).view.emb (ix2 p q))
  rw [hemb]
  exact out3_block (iblk m c 0 t) (iblk m c 1 t) (iblk m c 2 t) (xArg m c) (wArg m c) (bArg m c) (row t p) p
    (fun h k => x_at m c t p h k) (fun e k => w_at m c t e k) (fun e => b_at m c t e) q

/-- Point `t` writes back its rows of the packed probabilities. -/
theorem flushed_probs (c : Dev nD) (t : Fin cfg0.N) :
    (dats m 0 c).flushed 4 t = ((cfg0.win 4).blk t).view.read (Elt Ideal) (packedProbs (xArg m c) (wArg m c) (bArg m c)) := by
  show (cfg0.win 4).cut (grid0.coords t) ((dats m 0 c).after 4 t) = _
  rw [after0_4]
  obtain ⟨-, -, -, -, -, -, -, -, e0, e1⟩ := idx_facts t
  funext y
  obtain ⟨p, q, rfl⟩ : ∃ (p : Fin 2048) (q : Fin 128), y = ix2 p q := ⟨y 0, y 1, eq_ix2 y⟩
  have hemb : ((cfg0.win 4).blk t).view.emb (ix2 p q) = (ix2 (row t p) q : S16384x128.Idx) := funext fun a => Fin.ext (by
    match a with
    | ⟨0, _⟩ => show win0_4.index t (0 : Fin 2) * 2048 + 1 * p.val = 2048 * t.val + p.val; rw [e0]; omega
    | ⟨1, _⟩ => show win0_4.index t (1 : Fin 2) * 128 + 1 * q.val = q.val; rw [e1]; omega)
  show out0_4 (iblk m c 0 t) (iblk m c 1 t) (iblk m c 2 t) (ix2 p q)
    = packedProbs (xArg m c) (wArg m c) (bArg m c) (((cfg0.win 4).blk t).view.emb (ix2 p q))
  rw [hemb]
  exact out4_block (iblk m c 0 t) (iblk m c 1 t) (iblk m c 2 t) (xArg m c) (wArg m c) (bArg m c) (row t p) p
    (fun h k => x_at m c t p h k) (fun e k => w_at m c t e k) (fun e => b_at m c t e) q

/-! ## The eight blocks of rows tile each result array -/

theorem mem_blk3 (t : Fin cfg0.N) (i : S16384x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v2_0).slice (win0_3.rect t)).set ↔ _
  rw [View.set_slice_whole, Rect.mem_set_unit]
  exact Iff.rfl

theorem mem_blk4 (t : Fin cfg0.N) (i : S16384x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v2_1).slice (win0_4.rect t)).set ↔ _
  rw [View.set_slice_whole, Rect.mem_set_unit]
  exact Iff.rfl

/-- The point whose block holds packed row `r` is `r / 2048`. -/
def pointOf (i : S16384x128.Idx) : Fin cfg0.N :=
  ⟨(i 0).val / 2048, by have hN : cfg0.N = 8 := N_0; have := idx2_lt0 i; rw [hN]; omega⟩

theorem cover_logits (i : S16384x128.Idx) :
    ∃ t : Fin cfg0.N, (cfg0.win 3).flush t = true ∧ i ∈ ((cfg0.win 3).blk t).view.set := by
  refine ⟨pointOf i, flush0_3 _, ?_⟩
  rw [mem_blk3]
  obtain ⟨-, -, -, -, -, -, e0, e1, -⟩ := idx_facts (pointOf i)
  have hi0 := idx2_lt0 i
  have hi1 := idx2_lt1 i
  intro a
  match a with
  | ⟨0, _⟩ =>
    show win0_3.index (pointOf i) (0 : Fin 2) * 2048 ≤ (i 0).val ∧ (i 0).val < win0_3.index (pointOf i) (0 : Fin 2) * 2048 + 2048
    rw [e0]; show (i 0).val / 2048 * 2048 ≤ (i 0).val ∧ (i 0).val < (i 0).val / 2048 * 2048 + 2048; omega
  | ⟨1, _⟩ =>
    show win0_3.index (pointOf i) (1 : Fin 2) * 128 ≤ (i 1).val ∧ (i 1).val < win0_3.index (pointOf i) (1 : Fin 2) * 128 + 128
    rw [e1]; omega

theorem cover_probs (i : S16384x128.Idx) :
    ∃ t : Fin cfg0.N, (cfg0.win 4).flush t = true ∧ i ∈ ((cfg0.win 4).blk t).view.set := by
  refine ⟨pointOf i, flush0_4 _, ?_⟩
  rw [mem_blk4]
  obtain ⟨-, -, -, -, -, -, -, -, e0, e1⟩ := idx_facts (pointOf i)
  have hi0 := idx2_lt0 i
  have hi1 := idx2_lt1 i
  intro a
  match a with
  | ⟨0, _⟩ =>
    show win0_4.index (pointOf i) (0 : Fin 2) * 2048 ≤ (i 0).val ∧ (i 0).val < win0_4.index (pointOf i) (0 : Fin 2) * 2048 + 2048
    rw [e0]; show (i 0).val / 2048 * 2048 ≤ (i 0).val ∧ (i 0).val < (i 0).val / 2048 * 2048 + 2048; omega
  | ⟨1, _⟩ =>
    show win0_4.index (pointOf i) (1 : Fin 2) * 128 ≤ (i 1).val ∧ (i 1).val < win0_4.index (pointOf i) (1 : Fin 2) * 128 + 128
    rw [e1]; omega

/-! ## The result arrays after the region -/

theorem final_logits (c : Dev nD) : (dats m 0 c).arrAt 3 cfg0.N = packedLogits (xArg m c) (wArg m c) (bArg m c) :=
  (dats m 0 c).arrAt_eq_of_cover 3 (packedLogits (xArg m c) (wArg m c) (bArg m c)) (fun t _ => flushed_logits m c t) cover_logits

theorem final_probs (c : Dev nD) : (dats m 0 c).arrAt 4 cfg0.N = packedProbs (xArg m c) (wArg m c) (bArg m c) :=
  (dats m 0 c).arrAt_eq_of_cover 4 (packedProbs (xArg m c) (wArg m c) (bArg m c)) (fun t _ => flushed_probs m c t) cover_probs

end Cert.Router.Kernel

end
-- ==== Proof.KernelRun.lean ====
/-
  The kernel's run, read: after the region the host views each packed result back as 32768 × 64, which undoes the packing,
  so the program ends with its first result at `logits` and its second at `probs` of the three arguments, and the
  arguments as they were.
-/
import proofs.«137286_g17575006175839_cont_sun_c4_656_15_alg».proof.Proof.Blocks

noncomputable section

namespace Cert.Router.Kernel

open Cert.KernelIdeal Cert.KernelIdeal.Gen
open Idealize.ShloMosaic Idealize.ShloMosaic.TcCoe Idealize.SL.Sem Idealize.ShloMosaic.ValueIdx
open Idealize.ShloMosaic.Pipeline (Dat)
open Cert.Router

variable (m : (ℓ : Loc nD τ sig) → Buf (Elt Ideal) ℓ) (ρ : Dev nD → PrngReg)

/-- The first result: the packed logits the region left, viewed back. -/
theorem tail_logits (c : Dev nD) :
    Pipeline.afterTail₀ cfgs (dats m) 0 (V0 m) [hostOps1] c main_v3 = logits (xArg m c) (wArg m c) (bArg m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2_0)
      = packedLogits (xArg m c) (wArg m c) (bArg m c) :=
    (Pipeline.withArrays_arr spec0 launch0.win.arr_inj c _ _ 3).trans (final_logits m c)
  have h := unpack_logits (xArg m c) (wArg m c) (bArg m c) shapeCasts_S16384x128_S32768x64
  rw [← hw] at h
  exact h

/-- The second result: the packed probabilities the region left, viewed back. -/
theorem tail_probs (c : Dev nD) :
    Pipeline.afterTail₀ cfgs (dats m) 0 (V0 m) [hostOps1] c main_v4 = probs (xArg m c) (wArg m c) (bArg m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2_1)
      = packedProbs (xArg m c) (wArg m c) (bArg m c) :=
    (Pipeline.withArrays_arr spec0 launch0.win.arr_inj c _ _ 4).trans (final_probs m c)
  have h := unpack_probs (xArg m c) (wArg m c) (bArg m c) shapeCasts_S16384x128_S32768x64
  rw [← hw] at h
  exact h

/-- Every weakly fair execution of the kernel's program ends with the two results at the specification's two arrays of
    the arguments, and the arguments unchanged. -/
theorem run : θ_run defs (onTc (τ := τ) (main (F := Ideal))) ⟨m, fun _ => 0, ρ⟩ fun r => ∀ c : Dev nD,
      r.2.mem ((c.tc : Thread nD τ).loc main_v3) = logits (xArg m c) (wArg m c) (bArg m c)
      ∧ r.2.mem ((c.tc : Thread nD τ).loc main_v4) = probs (xArg m c) (wArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v3 (Pipeline.mem_restRefs_of main_v3 (by decide) (by decide))).trans (tail_logits m c),
      ((h c).2 main_v4 (Pipeline.mem_restRefs_of main_v4 (by decide) (by decide))).trans (tail_probs m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Router.Kernel

end
-- ==== Proof.lean ====
/-
  The certificate of the router kernel against its reference.

  Both programs compute, from the tokens `x` (32768 × 768), the expert matrix `W` (64 × 768) and the bias `b` (64), the
  logits `x · Wᵀ + b` and their row softmax (Proof/RouterSpec.lean). The reference does so directly (Proof/RefIsSpec.lean).
  The kernel packs two tokens per row, computes each half's logits and softmax in one body per block of 2048 packed rows,
  and unpacks at the end (Proof/Packing.lean, Proof/BodyRows.lean, Proof/Blocks.lean, Proof/KernelRun.lean). Over the
  extended reals a sum's or a maximum's order does not matter and a matrix product into a zero accumulator is a plain
  sum, so the two programs' results are the same two arrays, entry by entry; no finiteness of the inputs is needed.
  The idealized kernel is the kernel's own text read over the extended reals (no operation was rewritten), so `preserves`
  holds trivially; the three frames are the generated ones (the reference's is its generated run with the results dropped).
-/
import proofs.«137286_g17575006175839_cont_sun_c4_656_15_alg».proof.Defs
import proofs.«137286_g17575006175839_cont_sun_c4_656_15_alg».proof.Proof.Gen.Kernel
import proofs.«137286_g17575006175839_cont_sun_c4_656_15_alg».proof.Proof.Gen.Kernel.Frame
import proofs.«137286_g17575006175839_cont_sun_c4_656_15_alg».proof.Proof.Gen.KernelIdeal
import proofs.«137286_g17575006175839_cont_sun_c4_656_15_alg».proof.Proof.Gen.KernelIdeal.Frame
import proofs.«137286_g17575006175839_cont_sun_c4_656_15_alg».proof.Proof.Gen.ReferenceIdeal
import proofs.«137286_g17575006175839_cont_sun_c4_656_15_alg».proof.Proof.Gen.ReferenceIdeal.Run
import proofs.«137286_g17575006175839_cont_sun_c4_656_15_alg».proof.Proof.Gen.ReferenceIdeal.Read
import proofs.«137286_g17575006175839_cont_sun_c4_656_15_alg».proof.Proof.Gen.Pre_finite_inputs
import proofs.«137286_g17575006175839_cont_sun_c4_656_15_alg».proof.Proof.RefIsSpec
import proofs.«137286_g17575006175839_cont_sun_c4_656_15_alg».proof.Proof.KernelRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the three arguments, both programs end with their first results at `logits` and their
    second at `probs` of those arguments. -/
theorem algebraic : Cert.algebraic_KernelIdeal_ReferenceIdeal := by
  intro m ρ m' ρ' _ hagree
  refine ⟨fun c => Cert.Router.logits (Cert.Router.Kernel.xArg m c) (Cert.Router.Kernel.wArg m c) (Cert.Router.Kernel.bArg m c),
    fun c => Cert.Router.probs (Cert.Router.Kernel.xArg m c) (Cert.Router.Kernel.wArg m c) (Cert.Router.Kernel.bArg m c),
    Cert.Router.Kernel.run m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2⟩
  · rw [Cert.ReferenceIdeal.Read.val_main_v4_eq, Cert.Router.Reference.logits_eq, a0, a1, a2]
  · rw [Cert.ReferenceIdeal.Read.val_main_v15_eq, Cert.Router.Reference.probs_eq, a0, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
